-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Gcn.lean ====
/-
  The two-layer graph convolution as one function of its inputs, with the two linear transforms as parameters.

  Both programs compute, from the node features x, the weights and biases (W1, b1), (W2, b2) and the edge list e (row 0 the
  sources, row 1 the targets of 1 600 000 edges over 100 000 nodes):

    s, d     the sources and targets with one self loop per node appended (1 700 000 entries each);
    deg      the number of entries of d equal to each node, as a float: a scatter-add of ones;
    dinv     deg^(-1/2) where deg > 0, and 0 elsewhere;
    norm     per edge, dinv(s) · dinv(d) (a negative index counts from the end, as jnp indexing does);
    layer    h ↦ the scatter-add into the targets of h's source rows scaled by norm, plus the bias;
    result   layer₂ (relu (layer₁ (x · W1)) · W2).

  They differ in how the two matrix products are computed, so the products are parameters here; every other operation is
  the same host operation in both programs, and this file states the chain once so that no proof has to open it.
  The literals are the float words 0.0 and 1.0 and the integer 100000.
-/
import proofs.«178658_j15771119911318_1_alg».proof.Proof.Gen.ReferenceIdeal

noncomputable section

namespace Cert.Gcn

open Idealize.ShloMosaic Cert.ReferenceIdeal Cert.ReferenceIdeal.Gen

variable {F : FTy → Type} [FloatOps F]

/-- Row 0 of the edge list, flat. -/
def edgeSources (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list, flat. -/
def edgeTargets (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The sources with a self loop per node appended. -/
def sources (e : (⟨S2x1600000, .i32⟩ : BufTy).Contents (Elt F)) : (⟨S1700000, .i32⟩ : BufTy).Contents (Elt F) :=
  concatenate S1700000 0 [⟨S1600000, edgeSources (F := F) e⟩, ⟨S100000, (iotaInDim S100000 32 0)⟩] concatenates_S1600000_S100000_S1700000_d0

/-- The targets with a self loop per node appended. -/
def targets (e : (⟨S2x1600000, .i32⟩ : BufTy).Contents (Elt F)) : (⟨S1700000, .i32⟩ : BufTy).Contents (Elt F) :=
  concatenate S1700000 0 [⟨S1600000, edgeTargets (F := F) e⟩, ⟨S100000, (iotaInDim S100000 32 0)⟩] concatenates_S1600000_S100000_S1700000_d0

/-- A negative node index counts from the end: v + 100000 where v < 0, v elsewhere. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- Each node's count of incoming entries, as a float: ones scatter-added into zeros at the targets. -/
def degree (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- deg^(-1/2) where the degree is positive, 0 elsewhere. -/
def invSqrt (g : (⟨S100000, .f32⟩ : BufTy).Contents (Elt F)) : (⟨S100000, .f32⟩ : BufTy).Contents (Elt F) :=
  select (cmpf .ogt g (broadcastInDim S100000 ![] bcast_S_S100000 (constant S_ .f32 0x00000000#32))) (Host.rsqrt g) (broadcastInDim S100000 ![] bcast_S_S100000 (id (constant S_ .f32 0x00000000#32)))

/-- The per-edge weight dinv(source) · dinv(target). -/
def norm (s d : (⟨S1700000, .i32⟩ : BufTy).Contents (Elt F)) : (⟨S1700000, .f32⟩ : BufTy).Contents (Elt F) :=
  mulf (Host.gather gather_S100000_S1700000x1_S1700000_n_0_n_n_0_1_1 (invSqrt (degree (F := F) d)) (broadcastInDim S1700000x1 ![0] bcast_S1700000_S1700000x1_0 (wrap (F := F) s)))
    (Host.gather gather_S100000_S1700000x1_S1700000_n_0_n_n_0_1_1 (invSqrt (degree (F := F) d)) (broadcastInDim S1700000x1 ![0] bcast_S1700000_S1700000x1_0 (wrap (F := F) d)))

/-- The first layer after its linear transform h: the weighted source rows of h scatter-added into the targets, plus the
    bias, then the positive part. -/
def hidden (h : (⟨S100000x128, .f32⟩ : BufTy).Contents (Elt F)) (b : (⟨S128, .f32⟩ : BufTy).Contents (Elt F))
    (s d : (⟨S1700000, .i32⟩ : BufTy).Contents (Elt F)) (n : (⟨S1700000, .f32⟩ : BufTy).Contents (Elt F)) : (⟨S100000x128, .f32⟩ : BufTy).Contents (Elt F) :=
  maximumf (addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrap (F := F) s))) (broadcastInDim S1700000x128 ![0, 1] bcast_S1700000x1_S1700000x128_0_1 (broadcastInDim S1700000x1 ![0] bcast_S1700000_S1700000x1_0 n)))) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The second layer after its linear transform h: the same aggregation at 64 features, plus the bias. -/
def output (h : (⟨S100000x64, .f32⟩ : BufTy).Contents (Elt F)) (b : (⟨S64, .f32⟩ : BufTy).Contents (Elt F))
    (s d : (⟨S1700000, .i32⟩ : BufTy).Contents (Elt F)) (n : (⟨S1700000, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrap (F := F) s))) (broadcastInDim S1700000x64 ![0, 1] bcast_S1700000x1_S1700000x64_0_1 (broadcastInDim S1700000x1 ![0] bcast_S1700000_S1700000x1_0 n)))) (broadcastInDim S100000x64 ![0, 1] bcast_S1x64_S100000x64_0_1 (broadcastInDim S1x64 ![1] bcast_S64_S1x64_1 b))

/-- x · W1 as the host computes it: one `dot_general` of the whole operands. -/
abbrev product1 (l : (⟨S100000x128, .f32⟩ : BufTy).Contents (Elt F)) (r : (⟨S128x128, .f32⟩ : BufTy).Contents (Elt F)) :
    (⟨S100000x128, .f32⟩ : BufTy).Contents (Elt F) :=
  Host.dotGeneral dot_S100000x128_S128x128_S100000x128_1_0_0_1_n_n none l r

/-- h · W2 as the host computes it. -/
abbrev product2 (l : (⟨S100000x128, .f32⟩ : BufTy).Contents (Elt F)) (r : (⟨S128x64, .f32⟩ : BufTy).Contents (Elt F)) :
    (⟨S100000x64, .f32⟩ : BufTy).Contents (Elt F) :=
  Host.dotGeneral dot_S100000x128_S128x64_S100000x64_1_0_0_1_n_n none l r

/-- The whole network, over the two linear transforms. -/
def network (mm1 : (⟨S100000x128, .f32⟩ : BufTy).Contents (Elt F) → (⟨S128x128, .f32⟩ : BufTy).Contents (Elt F) → (⟨S100000x128, .f32⟩ : BufTy).Contents (Elt F))
    (mm2 : (⟨S100000x128, .f32⟩ : BufTy).Contents (Elt F) → (⟨S128x64, .f32⟩ : BufTy).Contents (Elt F) → (⟨S100000x64, .f32⟩ : BufTy).Contents (Elt F))
    (x : (⟨S100000x128, .f32⟩ : BufTy).Contents (Elt F)) (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) (e : (⟨S2x1600000, .i32⟩ : BufTy).Contents (Elt F)) :
    (⟨S100000x64, .f32⟩ : BufTy).Contents (Elt F) :=
  output (mm2 (hidden (mm1 x w1) b1 (sources (F := F) e) (targets (F := F) e) (norm (sources (F := F) e) (targets (F := F) e))) w2) b2
    (sources (F := F) e) (targets (F := F) e) (norm (sources (F := F) e) (targets (F := F) e))

end Cert.Gcn

end
-- ==== Proof.ReferenceValue.lean ====
/-
  The reference's result is the network with the host's matrix products as its two linear transforms.

  The reference run states its result as one composed term of the six argument arrays. That term IS the chain of
  `Cert.Gcn.network` — it recomputes the self-looped edge lists, the degrees and the edge weights for the second layer,
  which are the same functions of the edge list as for the first — with `x · W1` and `h · W2` computed by the host's
  `dot_general`: the two sides are the same term once the chain's definitions are unfolded.
-/
import proofs.«178658_j15771119911318_1_alg».proof.Proof.ReferenceRun
import proofs.«178658_j15771119911318_1_alg».proof.Proof.Gcn

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
/-- The run's result term is the network over the host products. -/
theorem result_eq (m : (ℓ : Loc nD τ sig) → Buf (Elt F) ℓ) (c : Dev nD) :
    Cert.ReferenceIdeal.ValueP.res_main_v90 m c
      = Cert.Gcn.network (F := F) Cert.Gcn.product1 Cert.Gcn.product2
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v90
  rfl

end Cert.ReferenceIdeal.RefValue

end
-- ==== Proof.KernelRun.lean ====
/-
  The idealized kernel's run with its result named.

  @main is eight segments: three stretches of host operations, the first pallas_call, two stretches, the second pallas_call,
  and a last stretch. The generated frame folds the TensorCore's buffer contents through those segments from the launch
  memory — a host stretch rewrites the buffers its operations write, a pallas_call rewrites its arrays to what its
  write-backs leave — and proves that every weakly fair execution terminates with EVERY unscoped buffer at the last
  boundary's contents. The frame claim reads only the argument arrays off that final state; here the same launch is read
  at the result buffer as well: the run ends with the result at the fold's value there, the arguments unchanged.
-/
import proofs.«178658_j15771119911318_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, with the
    result buffer at the last boundary's contents and the argument arrays as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.KernelHost.lean ====
/-
  What the idealized kernel's host stretches compute.

  Between and around its two pallas_calls the kernel's @main runs plain host operations. Each stretch is a straight line,
  so what it leaves in a buffer is a pure function of the buffers it read: the three stretches before the first call
  build the self-looped edge lists and the per-edge weights from the edge list; the two between the calls aggregate the
  first product, add the bias and take the positive part; the last aggregates the second product and adds the bias.
  Those functions are the chain of `Cert.Gcn`, operation for operation; a buffer a stretch does not write keeps its
  contents. All of it holds at any float instance.
-/
import proofs.«178658_j15771119911318_1_alg».proof.Proof.Gen.KernelIdeal.Launch
import proofs.«178658_j15771119911318_1_alg».proof.Proof.Gcn
import Idealize.ShloMosaic.Lib.StableHlo.Run

set_option maxRecDepth 16384

noncomputable section

namespace Cert.KernelIdeal.HostStretches

open Idealize.ShloMosaic Idealize.ShloMosaic.TcCoe Idealize.SL.Sem Idealize.ShloMosaic.StableHlo
open Cert.KernelIdeal Cert.KernelIdeal.Gen

variable {F : FTy → Type} [FloatOps F] (U : Valuation τ sig (Elt F))

/-! ## Before the first call -/

/-- The buffers after the three stretches that precede the first call, from contents `U`. -/
abbrev prologue : Valuation τ sig (Elt F) := after hostOps0_2 (after hostOps0_1 (after hostOps0 U))

/-- The self-looped sources, -/
theorem prologue_sources : prologue U (Proc.devRef .tc main_v5) = Cert.Gcn.sources (F := F) (U (Proc.devRef .tc main_arg5)) := by
  dsimp only [prologue, hostOps0, hostOps0_1, hostOps0_2]
  after_results_simp
  rfl

/-- the self-looped targets, -/
theorem prologue_targets : prologue U (Proc.devRef .tc main_v6) = Cert.Gcn.targets (F := F) (U (Proc.devRef .tc main_arg5)) := by
  dsimp only [prologue, hostOps0, hostOps0_1, hostOps0_2]
  after_results_simp
  rfl

/-- and the per-edge weights. -/
theorem prologue_norm : prologue U (Proc.devRef .tc main_v29)
    = Cert.Gcn.norm (F := F) (Cert.Gcn.sources (F := F) (U (Proc.devRef .tc main_arg5))) (Cert.Gcn.targets (F := F) (U (Proc.devRef .tc main_arg5))) := by
  dsimp only [prologue, hostOps0, hostOps0_1, hostOps0_2]
  after_results_simp
  rfl

/-- The arguments pass through. -/
theorem prologue_main_arg0 : prologue U (Proc.devRef .tc main_arg0) = U (Proc.devRef .tc main_arg0) := by
  dsimp only [prologue, hostOps0, hostOps0_1, hostOps0_2, hostOps1, hostOps1_1, hostOps2]
  after_results_simp
theorem prologue_main_arg1 : prologue U (Proc.devRef .tc main_arg1) = U (Proc.devRef .tc main_arg1) := by
  dsimp only [prologue, hostOps0, hostOps0_1, hostOps0_2, hostOps1, hostOps1_1, hostOps2]
  after_results_simp
theorem prologue_main_arg2 : prologue U (Proc.devRef .tc main_arg2) = U (Proc.devRef .tc main_arg2) := by
  dsimp only [prologue, hostOps0, hostOps0_1, hostOps0_2, hostOps1, hostOps1_1, hostOps2]
  after_results_simp
theorem prologue_main_arg3 : prologue U (Proc.devRef .tc main_arg3) = U (Proc.devRef .tc main_arg3) := by
  dsimp only [prologue, hostOps0, hostOps0_1, hostOps0_2, hostOps1, hostOps1_1, hostOps2]
  after_results_simp
theorem prologue_main_arg4 : prologue U (Proc.devRef .tc main_arg4) = U (Proc.devRef .tc main_arg4) := by
  dsimp only [prologue, hostOps0, hostOps0_1, hostOps0_2, hostOps1, hostOps1_1, hostOps2]
  after_results_simp

/-! ## Between the calls -/

/-- The buffers after the two stretches between the calls, from contents `U`. -/
abbrev interlude : Valuation τ sig (Elt F) := after hostOps1_1 (after hostOps1 U)

/-- The first layer's output from the first product, the bias, the edge lists and the weights. -/
theorem interlude_hidden : interlude U (Proc.devRef .tc main_v47)
    = Cert.Gcn.hidden (F := F) (U (Proc.devRef .tc main_v30)) (U (Proc.devRef .tc main_arg2)) (U (Proc.devRef .tc main_v5)) (U (Proc.devRef .tc main_v6)) (U (Proc.devRef .tc main_v29)) := by
  dsimp only [interlude, hostOps1, hostOps1_1]
  after_results_simp
  rfl

/-- The edge lists, the weights and the later arguments pass through. -/
theorem interlude_main_v5 : interlude U (Proc.devRef .tc main_v5) = U (Proc.devRef .tc main_v5) := by
  dsimp only [interlude, hostOps0, hostOps0_1, hostOps0_2, hostOps1, hostOps1_1, hostOps2]
  after_results_simp
theorem interlude_main_v6 : interlude U (Proc.devRef .tc main_v6) = U (Proc.devRef .tc main_v6) := by
  dsimp only [interlude, hostOps0, hostOps0_1, hostOps0_2, hostOps1, hostOps1_1, hostOps2]
  after_results_simp
theorem interlude_main_v29 : interlude U (Proc.devRef .tc main_v29) = U (Proc.devRef .tc main_v29) := by
  dsimp only [interlude, hostOps0, hostOps0_1, hostOps0_2, hostOps1, hostOps1_1, hostOps2]
  after_results_simp
theorem interlude_main_arg3 : interlude U (Proc.devRef .tc main_arg3) = U (Proc.devRef .tc main_arg3) := by
  dsimp only [interlude, hostOps0, hostOps0_1, hostOps0_2, hostOps1, hostOps1_1, hostOps2]
  after_results_simp
theorem interlude_main_arg4 : interlude U (Proc.devRef .tc main_arg4) = U (Proc.devRef .tc main_arg4) := by
  dsimp only [interlude, hostOps0, hostOps0_1, hostOps0_2, hostOps1, hostOps1_1, hostOps2]
  after_results_simp

/-! ## After the second call -/

/-- The buffers after the last stretch, from contents `U`. -/
abbrev epilogue : Valuation τ sig (Elt F) := after hostOps2 U

/-- The result from the second product, the bias, the edge lists and the weights. -/
theorem epilogue_output : epilogue U (Proc.devRef .tc main_v64)
    = Cert.Gcn.output (F := F) (U (Proc.devRef .tc main_v48)) (U (Proc.devRef .tc main_arg4)) (U (Proc.devRef .tc main_v5)) (U (Proc.devRef .tc main_v6)) (U (Proc.devRef .tc main_v29)) := by
  dsimp only [epilogue, hostOps2]
  after_results_simp
  rfl

end Cert.KernelIdeal.HostStretches

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«178658_j15771119911318_1_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LinearOne.lean ====
/-
  Layer 1's linear transform, block by block: the array the first pallas_call leaves is the whole matrix product.

  The call tiles the 100000 rows of its left operand into 20 blocks of 5000 rows; at grid point t the body multiplies
  block t of the left operand (5000 × 128) by the whole right operand (128 × 128) into a zero accumulator and stores the
  5000 × 128 product as block t of the result. Read at the ideal values, where rounding an operand to bf16 is the identity,
  entry (p, q) of that block is Σ_k left(5000·t + p, k) · right(k, q) — entry (5000·t + p, q) of the product of the WHOLE
  operands, which is how the reference's host `dot_general` reads at that index. The 20 blocks cover every row, so after
  the call the result array is the host product of the two operand arrays as the call found them, whatever they hold.
-/
import proofs.«178658_j15771119911318_1_alg».proof.Proof.Gen.KernelIdeal.Frame
import proofs.«178658_j15771119911318_1_alg».proof.Proof.Gcn
import proofs.«178658_j15771119911318_1_alg».proof.Proof.LibHostDot2
import Idealize.ShloMosaic.Lib.Pipeline.Value
import Idealize.ShloMosaic.Lib.ValueIdx

set_option maxRecDepth 16384

noncomputable section

namespace Cert.KernelIdeal.LinearOne

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The product of the whole operands, as the reference's host `dot_general` computes it. -/
abbrev product (x : FVec Ideal ⟨2, ![100000, 128]⟩ .f32) (w : FVec Ideal ⟨2, ![128, 128]⟩ .f32) : FVec Ideal ⟨2, ![100000, 128]⟩ .f32 :=
  Cert.Gcn.product1 (F := Ideal) x w

/-- Entry (r, q) of the product is Σ_k x(r, k) · w(k, q). -/
theorem product_apply (x : FVec Ideal ⟨2, ![100000, 128]⟩ .f32) (w : FVec Ideal ⟨2, ![128, 128]⟩ .f32) (r : Fin 100000) (q : Fin 128) :
    product x w (ix2 r q) = ∑ k : Fin 128, x (ix2 r k) * w (ix2 k q) :=
  Cert.Lib.hostDot2_apply Cert.ReferenceIdeal.Gen.dot_S100000x128_S128x128_S100000x128_1_0_0_1_n_n_wf x w r q

/-- Entry (p, q) of what the body stores is Σ_k x0(p, k) · x1(k, q) of the two blocks it loaded: rounding to bf16 is the
    identity at the ideal values and the accumulator starts at zero. -/
theorem stored_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Cert.Lib.matmul2_zero_apply (φ₁ := .bf16) (φ₂ := .bf16) dot_S5000x128_S128x128_S5000x128_1_0_0_1_n_n_wf
    (truncf .bf16 x0 bitsLt_bf16_f32) (truncf .bf16 x1 bitsLt_bf16_f32) p q).trans ?_
  rfl

/-- A stored entry is an entry of the whole product, once the loaded blocks are known to be rows r… of the left
    array and the whole right array. -/
theorem stored_eq_product (x : FVec Ideal ⟨2, ![100000, 128]⟩ .f32) (w : FVec Ideal ⟨2, ![128, 128]⟩ .f32)
    (x0 : Vec Ideal S5000x128 .f32) (x1 : Vec Ideal S128x128 .f32) (p : Fin 5000) (q : Fin 128) (r : Fin 100000)
    (hx0 : ∀ k : Fin 128, x0 (ix2 p k) = x (ix2 r k)) (hx1 : ∀ k : Fin 128, x1 (ix2 k q) = w (ix2 k q)) :
    k0_pay1 (F := Ideal) x0 x1 (ix2 p q) = product x w (ix2 r q) := by
  rw [stored_apply, product_apply]
  exact Finset.sum_congr rfl fun k _ => by rw [hx0 k, hx1 k]

theorem offsets_zero : (![0, 0] : Fin 2 → Nat) = fun _ => 0 := funext fun a => by fin_cases a <;> rfl

/-- The printed index maps over the 20 grid points: the left operand's block moves with the result's along the rows, the
    right operand's block is the whole array at every point, and the result's row-block index stays below 20. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block of the result is some grid point's. -/
theorem index_onto : ∀ b : Fin 20, ∃ t : Fin cfg0.N, win0_2.index t = ![b.val, 0] :=
  (by decide +kernel : ∀ b : Fin 20, ∃ t : Fin grid0.N, win0_2.index t = ![b.val, 0])

section
variable (V : (c : Dev nD) → (b : Ref sig .tc) → Buf (Elt Ideal) ((c : Thread nD τ).loc b))

/-- What grid point t writes back is block t of the product of the operand arrays as the call finds them. -/
theorem flushed_eq (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x128) offsets_zero]
  obtain ⟨e0, e1, e2, e3, e4, e5⟩ := index_facts t
  funext j
  revert j
  show ∀ j : S5000x128.Idx, k0_pay1 (F := Ideal) (iblk0 V c 0 t) (iblk0 V c 1 t) j
      = product (V c main_arg0) (V c main_arg1) (((cfg0.win 2).blk t).view.emb j)
  intro j
  obtain ⟨p, q, rfl⟩ : ∃ (p : Fin 5000) (q : Fin 128), j = ix2 p q := ⟨j 0, j 1, eq_ix2 j⟩
  have hp : p.val < 5000 := p.isLt
  have hrow : ((cfg0.win 2).blk t).view.emb (ix2 p q) = ix2 (⟨win0_2.index t (0 : Fin 2) * 5000 + p.val, by omega⟩ : Fin 100000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  refine (stored_eq_product (V c main_arg0) (V c main_arg1) _ _ p q ⟨win0_2.index t (0 : Fin 2) * 5000 + p.val, by omega⟩ (fun k => ?_) (fun k => ?_)).trans
    (congrArg (product (V c main_arg0) (V c main_arg1)) hrow.symm)
  · show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  · show V c main_arg1 (((cfg0.win 1).blk t).view.emb (ix2 k q)) = _
    refine congrArg (V c main_arg1) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index of the result array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result is written by the grid point whose row block is r / 5000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the call the result array is the product of the two operand arrays as the call found them. -/
theorem final (c : Dev nD) : (dat0 V c).arrAt 2 cfg0.N = product (V c main_arg0) (V c main_arg1) :=
  (dat0 V c).arrAt_eq_of_cover 2 _ (fun t _ => flushed_eq V c t) covered

end

end Cert.KernelIdeal.LinearOne

end
-- ==== Proof.LinearTwo.lean ====
/-
  Layer 2's linear transform, block by block: the array the second pallas_call leaves is the whole matrix product.

  The call tiles the 100000 rows of its left operand into 20 blocks of 5000 rows; at grid point t the body multiplies
  block t of the left operand (5000 × 128) by the whole right operand (128 × 64) into a zero accumulator and stores the
  5000 × 64 product as block t of the result. Read at the ideal values, where rounding an operand to bf16 is the identity,
  entry (p, q) of that block is Σ_k left(5000·t + p, k) · right(k, q) — entry (5000·t + p, q) of the product of the WHOLE
  operands, which is how the reference's host `dot_general` reads at that index. The 20 blocks cover every row, so after
  the call the result array is the host product of the two operand arrays as the call found them, whatever they hold.
-/
import proofs.«178658_j15771119911318_1_alg».proof.Proof.Gen.KernelIdeal.Frame
import proofs.«178658_j15771119911318_1_alg».proof.Proof.Gcn
import proofs.«178658_j15771119911318_1_alg».proof.Proof.LibHostDot2
import Idealize.ShloMosaic.Lib.Pipeline.Value
import Idealize.ShloMosaic.Lib.ValueIdx

set_option maxRecDepth 16384

noncomputable section

namespace Cert.KernelIdeal.LinearTwo

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The product of the whole operands, as the reference's host `dot_general` computes it. -/
abbrev product (x : FVec Ideal ⟨2, ![100000, 128]⟩ .f32) (w : FVec Ideal ⟨2, ![128, 64]⟩ .f32) : FVec Ideal ⟨2, ![100000, 64]⟩ .f32 :=
  Cert.Gcn.product2 (F := Ideal) x w

/-- Entry (r, q) of the product is Σ_k x(r, k) · w(k, q). -/
theorem product_apply (x : FVec Ideal ⟨2, ![100000, 128]⟩ .f32) (w : FVec Ideal ⟨2, ![128, 64]⟩ .f32) (r : Fin 100000) (q : Fin 64) :
    product x w (ix2 r q) = ∑ k : Fin 128, x (ix2 r k) * w (ix2 k q) :=
  Cert.Lib.hostDot2_apply Cert.ReferenceIdeal.Gen.dot_S100000x128_S128x64_S100000x64_1_0_0_1_n_n_wf x w r q

/-- Entry (p, q) of what the body stores is Σ_k x0(p, k) · x1(k, q) of the two blocks it loaded: rounding to bf16 is the
    identity at the ideal values, as is the shape cast of the left block to its own shape, and the accumulator starts at zero. -/
theorem stored_apply (x0 : Vec Ideal S5000x128 .f32) (x1 : Vec Ideal S128x64 .f32) (p : Fin 5000) (q : Fin 64) :
    k1_pay1 (F := Ideal) x0 x1 (ix2 p q) = ∑ k : Fin 128, x0 (ix2 p k) * x1 (ix2 k q) := by
  unfold k1_pay1
  refine (Cert.Lib.matmul2_zero_apply (φ₁ := .bf16) (φ₂ := .bf16) dot_S5000x128_S128x64_S5000x64_1_0_0_1_n_n_wf
    (truncf .bf16 (shapeCast S5000x128 x0 shapeCasts_S5000x128_S5000x128) bitsLt_bf16_f32) (truncf .bf16 x1 bitsLt_bf16_f32) p q).trans ?_
  show ∑ k : Fin 128, shapeCast S5000x128 x0 shapeCasts_S5000x128_S5000x128 (ix2 p k) * x1 (ix2 k q) = _
  rw [shapeCast_self]

/-- A stored entry is an entry of the whole product, once the loaded blocks are known to be rows r… of the left
    array and the whole right array. -/
theorem stored_eq_product (x : FVec Ideal ⟨2, ![100000, 128]⟩ .f32) (w : FVec Ideal ⟨2, ![128, 64]⟩ .f32)
    (x0 : Vec Ideal S5000x128 .f32) (x1 : Vec Ideal S128x64 .f32) (p : Fin 5000) (q : Fin 64) (r : Fin 100000)
    (hx0 : ∀ k : Fin 128, x0 (ix2 p k) = x (ix2 r k)) (hx1 : ∀ k : Fin 128, x1 (ix2 k q) = w (ix2 k q)) :
    k1_pay1 (F := Ideal) x0 x1 (ix2 p q) = product x w (ix2 r q) := by
  rw [stored_apply, product_apply]
  exact Finset.sum_congr rfl fun k _ => by rw [hx0 k, hx1 k]

theorem offsets_zero : (![0, 0] : Fin 2 → Nat) = fun _ => 0 := funext fun a => by fin_cases a <;> rfl

/-- The printed index maps over the 20 grid points: the left operand's block moves with the result's along the rows, the
    right operand's block is the whole array at every point, and the result's row-block index stays below 20. -/
theorem index_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every row block of the result is some grid point's. -/
theorem index_onto : ∀ b : Fin 20, ∃ t : Fin cfg1.N, win1_2.index t = ![b.val, 0] :=
  (by decide +kernel : ∀ b : Fin 20, ∃ t : Fin grid1.N, win1_2.index t = ![b.val, 0])

section
variable (V : (c : Dev nD) → (b : Ref sig .tc) → Buf (Elt Ideal) ((c : Thread nD τ).loc b))

/-- What grid point t writes back is block t of the product of the operand arrays as the call finds them. -/
theorem flushed_eq (c : Dev nD) (t : Fin cfg1.N) :
    (dat1 V c).flushed 2 t = ((cfg1.win 2).blk t).view.read (Elt Ideal) (product (V c main_v47) (V c main_arg3)) := by
  show (cfg1.win 2).cut (grid1.coords t) ((dat1 V c).after 2 t) = _
  rw [after1_2]
  unfold out1_2
  rw [View.canon_unit_zero offsets_zero]
  simp only [View.ld_unit_zero (S := S5000x128) offsets_zero, View.ld_unit_zero (S := S128x64) offsets_zero]
  obtain ⟨e0, e1, e2, e3, e4, e5⟩ := index_facts t
  funext j
  revert j
  show ∀ j : S5000x64.Idx, k1_pay1 (F := Ideal) (iblk1 V c 0 t) (iblk1 V c 1 t) j
      = product (V c main_v47) (V c main_arg3) (((cfg1.win 2).blk t).view.emb j)
  intro j
  obtain ⟨p, q, rfl⟩ : ∃ (p : Fin 5000) (q : Fin 64), j = ix2 p q := ⟨j 0, j 1, eq_ix2 j⟩
  have hp : p.val < 5000 := p.isLt
  have hrow : ((cfg1.win 2).blk t).view.emb (ix2 p q) = ix2 (⟨win1_2.index t (0 : Fin 2) * 5000 + p.val, by omega⟩ : Fin 100000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 64 + 1 * q.val = q.val; omega
  refine (stored_eq_product (V c main_v47) (V c main_arg3) _ _ p q ⟨win1_2.index t (0 : Fin 2) * 5000 + p.val, by omega⟩ (fun k => ?_) (fun k => ?_)).trans
    (congrArg (product (V c main_v47) (V c main_arg3)) hrow.symm)
  · show V c main_v47 (((cfg1.win 0).blk t).view.emb (ix2 p k)) = _
    refine congrArg (V c main_v47) ?_
    funext a; apply Fin.ext
    match a with
    | ⟨0, _⟩ => show win1_0.index t (0 : Fin 2) * 5000 + 1 * p.val = win1_2.index t (0 : Fin 2) * 5000 + p.val; omega
    | ⟨1, _⟩ => show win1_0.index t (1 : Fin 2) * 128 + 1 * k.val = k.val; omega
  · show V c main_arg3 (((cfg1.win 1).blk t).view.emb (ix2 k q)) = _
    refine congrArg (V c main_arg3) ?_
    funext a; apply Fin.ext
    match a with
    | ⟨0, _⟩ => show win1_1.index t (0 : Fin 2) * 128 + 1 * k.val = k.val; omega
    | ⟨1, _⟩ => show win1_1.index t (1 : Fin 2) * 64 + 1 * q.val = q.val; omega

/-- An index of the result array is in point t's block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Row r of the result is written by the grid point whose row block is r / 5000. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the call the result array is the product of the two operand arrays as the call found them. -/
theorem final (c : Dev nD) : (dat1 V c).arrAt 2 cfg1.N = product (V c main_v47) (V c main_arg3) :=
  (dat1 V c).arrAt_eq_of_cover 2 _ (fun t _ => flushed_eq V c t) covered

end

end Cert.KernelIdeal.LinearTwo

end
-- ==== Proof.KernelValue.lean ====
/-
  The idealized kernel's result as a function of the launch memory.

  The generated frame names the TensorCore's buffer contents at each segment boundary of @main (`W0` at launch … `W8` at
  the return). Walking those boundaries: the three host stretches before the first call leave the self-looped edge lists
  and the edge weights, and the arguments untouched; the first call leaves x · W1 in its result array (the blocks cover it)
  and every other buffer as it was; the stretches between the calls leave the first layer's output; the second call leaves
  its product with W2; the last stretch leaves the result. So the result buffer at the return holds the network of
  `Cert.Gcn` over the host's two matrix products, of the six argument arrays as launched.
-/
import proofs.«178658_j15771119911318_1_alg».proof.Proof.Gen.KernelIdeal.Frame
import proofs.«178658_j15771119911318_1_alg».proof.Proof.KernelHost
import proofs.«178658_j15771119911318_1_alg».proof.Proof.LinearOne
import proofs.«178658_j15771119911318_1_alg».proof.Proof.LinearTwo

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen Cert.KernelIdeal.HostStretches

variable (m : (ℓ : Loc nD τ sig) → Buf (Elt Ideal) ℓ) (ρ : Dev nD → PrngReg) (c : Dev nD)

/-! ## At the first call's entry -/

theorem entry1_sources : W3 m ρ c (Proc.devRef .tc main_v5) = (Cert.Gcn.sources (F := Ideal) (m ((c.tc : Thread nD τ).loc main_arg5))) := prologue_sources (W0 m ρ c)
theorem entry1_targets : W3 m ρ c (Proc.devRef .tc main_v6) = (Cert.Gcn.targets (F := Ideal) (m ((c.tc : Thread nD τ).loc main_arg5))) := prologue_targets (W0 m ρ c)
theorem entry1_norm : W3 m ρ c (Proc.devRef .tc main_v29) = (Cert.Gcn.norm (F := Ideal) (Cert.Gcn.sources (F := Ideal) (m ((c.tc : Thread nD τ).loc main_arg5))) (Cert.Gcn.targets (F := Ideal) (m ((c.tc : Thread nD τ).loc main_arg5)))) := prologue_norm (W0 m ρ c)
theorem entry1_arg0 : W3 m ρ c (Proc.devRef .tc main_arg0) = (m ((c.tc : Thread nD τ).loc main_arg0)) := prologue_main_arg0 (W0 m ρ c)
theorem entry1_arg1 : W3 m ρ c (Proc.devRef .tc main_arg1) = (m ((c.tc : Thread nD τ).loc main_arg1)) := prologue_main_arg1 (W0 m ρ c)
theorem entry1_arg2 : W3 m ρ c (Proc.devRef .tc main_arg2) = (m ((c.tc : Thread nD τ).loc main_arg2)) := prologue_main_arg2 (W0 m ρ c)
theorem entry1_arg3 : W3 m ρ c (Proc.devRef .tc main_arg3) = (m ((c.tc : Thread nD τ).loc main_arg3)) := prologue_main_arg3 (W0 m ρ c)
theorem entry1_arg4 : W3 m ρ c (Proc.devRef .tc main_arg4) = (m ((c.tc : Thread nD τ).loc main_arg4)) := prologue_main_arg4 (W0 m ρ c)

/-! ## After the first call: its result array is the product, every other buffer is as it was -/

theorem exit1_product : W4 m ρ c (Proc.devRef .tc main_v30) = (Cert.Gcn.product1 (F := Ideal) (m ((c.tc : Thread nD τ).loc main_arg0)) (m ((c.tc : Thread nD τ).loc main_arg1))) := by
  refine (W4_arr m ρ c 2).trans ?_
  refine (Cert.KernelIdeal.LinearOne.final (V3 m ρ) c).trans ?_
  show Cert.Gcn.product1 (F := Ideal) (W3 m ρ c (Proc.devRef .tc main_arg0)) (W3 m ρ c (Proc.devRef .tc main_arg1)) = _
  rw [entry1_arg0, entry1_arg1]
theorem exit1_sources : W4 m ρ c (Proc.devRef .tc main_v5) = (Cert.Gcn.sources (F := Ideal) (m ((c.tc : Thread nD τ).loc main_arg5))) := (W4_of_ne m ρ c main_v5 (by decide)).trans (entry1_sources m ρ c)
theorem exit1_targets : W4 m ρ c (Proc.devRef .tc main_v6) = (Cert.Gcn.targets (F := Ideal) (m ((c.tc : Thread nD τ).loc main_arg5))) := (W4_of_ne m ρ c main_v6 (by decide)).trans (entry1_targets m ρ c)
theorem exit1_norm : W4 m ρ c (Proc.devRef .tc main_v29) = (Cert.Gcn.norm (F := Ideal) (Cert.Gcn.sources (F := Ideal) (m ((c.tc : Thread nD τ).loc main_arg5))) (Cert.Gcn.targets (F := Ideal) (m ((c.tc : Thread nD τ).loc main_arg5)))) := (W4_of_ne m ρ c main_v29 (by decide)).trans (entry1_norm m ρ c)
theorem exit1_arg2 : W4 m ρ c (Proc.devRef .tc main_arg2) = (m ((c.tc : Thread nD τ).loc main_arg2)) := (W4_of_ne m ρ c main_arg2 (by decide)).trans (entry1_arg2 m ρ c)
theorem exit1_arg3 : W4 m ρ c (Proc.devRef .tc main_arg3) = (m ((c.tc : Thread nD τ).loc main_arg3)) := (W4_of_ne m ρ c main_arg3 (by decide)).trans (entry1_arg3 m ρ c)
theorem exit1_arg4 : W4 m ρ c (Proc.devRef .tc main_arg4) = (m ((c.tc : Thread nD τ).loc main_arg4)) := (W4_of_ne m ρ c main_arg4 (by decide)).trans (entry1_arg4 m ρ c)

/-! ## At the second call's entry -/

theorem entry2_hidden : W6 m ρ c (Proc.devRef .tc main_v47) = (Cert.Gcn.hidden (F := Ideal) (Cert.Gcn.product1 (F := Ideal) (m ((c.tc : Thread nD τ).loc main_arg0)) (m ((c.tc : Thread nD τ).loc main_arg1))) (m ((c.tc : Thread nD τ).loc main_arg2)) (Cert.Gcn.sources (F := Ideal) (m ((c.tc : Thread nD τ).loc main_arg5))) (Cert.Gcn.targets (F := Ideal) (m ((c.tc : Thread nD τ).loc main_arg5))) (Cert.Gcn.norm (F := Ideal) (Cert.Gcn.sources (F := Ideal) (m ((c.tc : Thread nD τ).loc main_arg5))) (Cert.Gcn.targets (F := Ideal) (m ((c.tc : Thread nD τ).loc main_arg5))))) := by
  refine (interlude_hidden (W4 m ρ c)).trans ?_
  rw [exit1_product, exit1_arg2, exit1_sources, exit1_targets, exit1_norm]
theorem entry2_sources : W6 m ρ c (Proc.devRef .tc main_v5) = (Cert.Gcn.sources (F := Ideal) (m ((c.tc : Thread nD τ).loc main_arg5))) := (interlude_main_v5 (W4 m ρ c)).trans (exit1_sources m ρ c)
theorem entry2_targets : W6 m ρ c (Proc.devRef .tc main_v6) = (Cert.Gcn.targets (F := Ideal) (m ((c.tc : Thread nD τ).loc main_arg5))) := (interlude_main_v6 (W4 m ρ c)).trans (exit1_targets m ρ c)
theorem entry2_norm : W6 m ρ c (Proc.devRef .tc main_v29) = (Cert.Gcn.norm (F := Ideal) (Cert.Gcn.sources (F := Ideal) (m ((c.tc : Thread nD τ).loc main_arg5))) (Cert.Gcn.targets (F := Ideal) (m ((c.tc : Thread nD τ).loc main_arg5)))) := (interlude_main_v29 (W4 m ρ c)).trans (exit1_norm m ρ c)
theorem entry2_arg3 : W6 m ρ c (Proc.devRef .tc main_arg3) = (m ((c.tc : Thread nD τ).loc main_arg3)) := (interlude_main_arg3 (W4 m ρ c)).trans (exit1_arg3 m ρ c)
theorem entry2_arg4 : W6 m ρ c (Proc.devRef .tc main_arg4) = (m ((c.tc : Thread nD τ).loc main_arg4)) := (interlude_main_arg4 (W4 m ρ c)).trans (exit1_arg4 m ρ c)

/-! ## After the second call -/

theorem exit2_product : W7 m ρ c (Proc.devRef .tc main_v48) = (Cert.Gcn.product2 (F := Ideal) (Cert.Gcn.hidden (F := Ideal) (Cert.Gcn.product1 (F := Ideal) (m ((c.tc : Thread nD τ).loc main_arg0)) (m ((c.tc : Thread nD τ).loc main_arg1))) (m ((c.tc : Thread nD τ).loc main_arg2)) (Cert.Gcn.sources (F := Ideal) (m ((c.tc : Thread nD τ).loc main_arg5))) (Cert.Gcn.targets (F := Ideal) (m ((c.tc : Thread nD τ).loc main_arg5))) (Cert.Gcn.norm (F := Ideal) (Cert.Gcn.sources (F := Ideal) (m ((c.tc : Thread nD τ).loc main_arg5))) (Cert.Gcn.targets (F := Ideal) (m ((c.tc : Thread nD τ).loc main_arg5))))) (m ((c.tc : Thread nD τ).loc main_arg3))) := by
  refine (W7_arr m ρ c 2).trans ?_
  refine (Cert.KernelIdeal.LinearTwo.final (V6 m ρ) c).trans ?_
  show Cert.Gcn.product2 (F := Ideal) (W6 m ρ c (Proc.devRef .tc main_v47)) (W6 m ρ c (Proc.devRef .tc main_arg3)) = _
  rw [entry2_hidden, entry2_arg3]
theorem exit2_sources : W7 m ρ c (Proc.devRef .tc main_v5) = (Cert.Gcn.sources (F := Ideal) (m ((c.tc : Thread nD τ).loc main_arg5))) := (W7_of_ne m ρ c main_v5 (by decide)).trans (entry2_sources m ρ c)
theorem exit2_targets : W7 m ρ c (Proc.devRef .tc main_v6) = (Cert.Gcn.targets (F := Ideal) (m ((c.tc : Thread nD τ).loc main_arg5))) := (W7_of_ne m ρ c main_v6 (by decide)).trans (entry2_targets m ρ c)
theorem exit2_norm : W7 m ρ c (Proc.devRef .tc main_v29) = (Cert.Gcn.norm (F := Ideal) (Cert.Gcn.sources (F := Ideal) (m ((c.tc : Thread nD τ).loc main_arg5))) (Cert.Gcn.targets (F := Ideal) (m ((c.tc : Thread nD τ).loc main_arg5)))) := (W7_of_ne m ρ c main_v29 (by decide)).trans (entry2_norm m ρ c)
theorem exit2_arg4 : W7 m ρ c (Proc.devRef .tc main_arg4) = (m ((c.tc : Thread nD τ).loc main_arg4)) := (W7_of_ne m ρ c main_arg4 (by decide)).trans (entry2_arg4 m ρ c)

/-! ## At the return -/

/-- The result buffer at the return holds the network over the host's two products, of the arguments as launched. -/
theorem result : W8 m ρ c (Proc.devRef .tc main_v64)
    = Cert.Gcn.network (F := Ideal) Cert.Gcn.product1 Cert.Gcn.product2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (epilogue_output (W7 m ρ c)).trans ?_
  rw [exit2_product, exit2_arg4, exit2_sources, exit2_targets, exit2_norm]
  rfl

end Cert.KernelIdeal.Boundary

end
-- ==== Proof.lean ====
/-
  The certificate of a two-layer graph convolution: a kernel that computes its two linear transforms x · W1 and h · W2 in
  pallas_calls (5000-row blocks, operands rounded to bf16 on the way into the matrix unit, f32 accumulation from zero)
  against a reference that computes them with the host's `dot_general`.

  Everything else — the self-looped edge lists, the degree normalization, the gather / scale / scatter-add aggregation, the
  biases and the relu — is the same host chain in both programs (`Cert.Gcn`); the reference merely recomputes the
  normalization for its second layer. At the ideal values rounding to bf16 is the identity, and a block of the kernel's
  product and the corresponding rows of the host's product are the same sums Σ_k left(r, k) · right(k, q), so each
  pallas_call leaves exactly the host's product in its result array (`LinearOne`, `LinearTwo`). Both programs therefore
  end with the network of `Cert.Gcn` over the host's products, of the same arguments: equal results as extended reals,
  with no use of the inputs' finiteness (no algebraic law is applied beyond reading both products as the same sum).

  The frames are the generated ones; the reference's is its run with the result dropped. The ideal pass rewrote nothing,
  so there is nothing to preserve.
-/
import proofs.«178658_j15771119911318_1_alg».proof.Defs
import proofs.«178658_j15771119911318_1_alg».proof.Proof.Gen.Kernel
import proofs.«178658_j15771119911318_1_alg».proof.Proof.Gen.Kernel.Skeleton
import proofs.«178658_j15771119911318_1_alg».proof.Proof.Gen.Kernel.Launch
import proofs.«178658_j15771119911318_1_alg».proof.Proof.Gen.Kernel.Points
import proofs.«178658_j15771119911318_1_alg».proof.Proof.Gen.Kernel.Frame
import proofs.«178658_j15771119911318_1_alg».proof.Proof.Gen.KernelIdeal
import proofs.«178658_j15771119911318_1_alg».proof.Proof.Gen.KernelIdeal.Skeleton
import proofs.«178658_j15771119911318_1_alg».proof.Proof.Gen.KernelIdeal.Launch
import proofs.«178658_j15771119911318_1_alg».proof.Proof.Gen.KernelIdeal.Points
import proofs.«178658_j15771119911318_1_alg».proof.Proof.Gen.KernelIdeal.Frame
import proofs.«178658_j15771119911318_1_alg».proof.Proof.Gen.ReferenceIdeal
import proofs.«178658_j15771119911318_1_alg».proof.Proof.Gen.Pre_finite_inputs
import proofs.«178658_j15771119911318_1_alg».proof.Proof.ReferenceRun
import proofs.«178658_j15771119911318_1_alg».proof.Proof.ReferenceValue
import proofs.«178658_j15771119911318_1_alg».proof.Proof.KernelRun
import proofs.«178658_j15771119911318_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the network over the host's two products, of arguments that agree. -/
theorem algebraic : Cert.algebraic_KernelIdeal_ReferenceIdeal := by
  intro m ρ m' ρ' _ hagree
  refine ⟨fun c => Cert.Gcn.network (F := Ideal) Cert.Gcn.product1 Cert.Gcn.product2
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundary.result m ρ c), (h c).2⟩) (Cert.KernelIdeal.Result.run m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
